-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x288x24 : Shape := ⟨3, ![64, 288, 24]⟩
abbrev S64x288 : Shape := ⟨2, ![64, 288]⟩
abbrev S64 : Shape := ⟨1, ![64]⟩
abbrev S24x256 : Shape := ⟨2, ![24, 256]⟩
abbrev S288x128 : Shape := ⟨2, ![288, 128]⟩
abbrev S7x32 : Shape := ⟨2, ![7, 32]⟩
abbrev S32x32 : Shape := ⟨2, ![32, 32]⟩
abbrev S367x64 : Shape := ⟨2, ![367, 64]⟩
abbrev S_ : Shape := ⟨0, ![]⟩

class Facts : Prop where
  bcast_S_S64x288x24 : S_.BroadcastsInDim S64x288x24 (![] : Fin 0 → Fin S64x288x24.rank)
  reducesTo_S64x288x24_S_d0_1_2 : S64x288x24.ReducesTo [0, 1, 2] S_
  h_S_ : 0 < S_.numel
  bcast_S_S24x256 : S_.BroadcastsInDim S24x256 (![] : Fin 0 → Fin S24x256.rank)
  reducesTo_S24x256_S_d0_1 : S24x256.ReducesTo [0, 1] S_
  bcast_S_S288x128 : S_.BroadcastsInDim S288x128 (![] : Fin 0 → Fin S288x128.rank)
  reducesTo_S288x128_S_d0_1 : S288x128.ReducesTo [0, 1] S_
  bcast_S_S7x32 : S_.BroadcastsInDim S7x32 (![] : Fin 0 → Fin S7x32.rank)
  reducesTo_S7x32_S_d0_1 : S7x32.ReducesTo [0, 1] S_
  bcast_S_S32x32 : S_.BroadcastsInDim S32x32 (![] : Fin 0 → Fin S32x32.rank)
  reducesTo_S32x32_S_d0_1 : S32x32.ReducesTo [0, 1] S_
  bcast_S_S367x64 : S_.BroadcastsInDim S367x64 (![] : Fin 0 → Fin S367x64.rank)
  reducesTo_S367x64_S_d0_1 : S367x64.ReducesTo [0, 1] S_

variable [Facts]

def fn_part1 {F : FTy → Type} [FloatOps F] (main_arg8 : FVec F S7x32 .f32) (main_arg9 : FVec F S32x32 .f32) (main_arg10 : FVec F S367x64 .f32) (main_v13 : IVec S_ 1) (main_v16 : IVec S288x128 1) : IVec S_ 1 :=
  let main_c_5 : IVec S_ 1 := constantI S_ 1 1#1
  let main_v17 : IVec S_ 1 := (fun x v => Host.reduce IntOp.andi x v reducesTo_S288x128_S_d0_1 h_S_) main_v16 main_c_5
  let main_v18 : IVec S_ 1 := andi main_v13 main_v17
  let main_v19 : FVec F S7x32 .f32 := Host.absf main_arg8
  let main_cst_6 : FVec F S_ .f32 := constant S_ .f32 0x7F800000#32
  let main_v20 : FVec F S7x32 .f32 := broadcastInDim S7x32 ![] bcast_S_S7x32 main_cst_6
  let main_v21 : IVec S7x32 1 := cmpf .olt main_v19 main_v20
  let main_c_7 : IVec S_ 1 := constantI S_ 1 1#1
  let main_v22 : IVec S_ 1 := (fun x v => Host.reduce IntOp.andi x v reducesTo_S7x32_S_d0_1 h_S_) main_v21 main_c_7
  let main_v23 : IVec S_ 1 := andi main_v18 main_v22
  let main_v24 : FVec F S32x32 .f32 := Host.absf main_arg9
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S367x64 .f32 := Host.absf main_arg10
  let main_cst_10 : FVec F S_ .f32 := constant S_ .f32 0x7F800000#32
  let main_v30 : FVec F S367x64 .f32 := broadcastInDim S367x64 ![] bcast_S_S367x64 main_cst_10
  let main_v31 : IVec S367x64 1 := cmpf .olt main_v29 main_v30
  let main_c_11 : IVec S_ 1 := constantI S_ 1 1#1
  let main_v32 : IVec S_ 1 := (fun x v => Host.reduce IntOp.andi x v reducesTo_S367x64_S_d0_1 h_S_) main_v31 main_c_11
  let main_v33 : IVec S_ 1 := andi main_v28 main_v32
  main_v33

def fn {F : FTy → Type} [FloatOps F] (main_arg0 : FVec F S64x288x24 .f32) (main_arg1 : IVec S64x288 32) (main_arg2 : IVec S64 32) (main_arg3 : IVec S64 32) (main_arg4 : IVec S64 32) (main_arg5 : FVec F S24x256 .f32) (main_arg6 : FVec F S24x256 .f32) (main_arg7 : FVec F S288x128 .f32) (main_arg8 : FVec F S7x32 .f32) (main_arg9 : FVec F S32x32 .f32) (main_arg10 : FVec F S367x64 .f32) : IVec S_ 1 :=
  let main_v0 : FVec F S64x288x24 .f32 := Host.absf main_arg0
  let main_cst : FVec F S_ .f32 := constant S_ .f32 0x7F800000#32
  let main_v1 : FVec F S64x288x24 .f32 := broadcastInDim S64x288x24 ![] bcast_S_S64x288x24 main_cst
  let main_v2 : IVec S64x288x24 1 := cmpf .olt main_v0 main_v1
  let main_c : IVec S_ 1 := constantI S_ 1 1#1
  let main_v3 : IVec S_ 1 := (fun x v => Host.reduce IntOp.andi x v reducesTo_S64x288x24_S_d0_1_2 h_S_) main_v2 main_c
  let main_v4 : FVec F S24x256 .f32 := Host.absf main_arg5
  let main_cst_0 : FVec F S_ .f32 := constant S_ .f32 0x7F800000#32
  let main_v5 : FVec F S24x256 .f32 := broadcastInDim S24x256 ![] bcast_S_S24x256 main_cst_0
  let main_v6 : IVec S24x256 1 := cmpf .olt main_v4 main_v5
  let main_c_1 : IVec S_ 1 := constantI S_ 1 1#1
  let main_v7 : IVec S_ 1 := (fun x v => Host.reduce IntOp.andi x v reducesTo_S24x256_S_d0_1 h_S_) main_v6 main_c_1
  let main_v8 : IVec S_ 1 := andi main_v3 main_v7
  let main_v9 : FVec F S24x256 .f32 := Host.absf main_arg6
  let main_cst_2 : FVec F S_ .f32 := constant S_ .f32 0x7F800000#32
  let main_v10 : FVec F S24x256 .f32 := broadcastInDim S24x256 ![] bcast_S_S24x256 main_cst_2
  let main_v11 : IVec S24x256 1 := cmpf .olt main_v9 main_v10
  let main_c_3 : IVec S_ 1 := constantI S_ 1 1#1
  let main_v12 : IVec S_ 1 := (fun x v => Host.reduce IntOp.andi x v reducesTo_S24x256_S_d0_1 h_S_) main_v11 main_c_3
  let main_v13 : IVec S_ 1 := andi main_v8 main_v12
  let main_v14 : FVec F S288x128 .f32 := Host.absf main_arg7
  let main_cst_4 : FVec F S_ .f32 := constant S_ .f32 0x7F800000#32
  let main_v15 : FVec F S288x128 .f32 := broadcastInDim S288x128 ![] bcast_S_S288x128 main_cst_4
  let main_v16 : IVec S288x128 1 := cmpf .olt main_v14 main_v15
  fn_part1 (F := F) main_arg8 main_arg9 main_arg10 main_v13 main_v16
-- ==== Kernel.lean ====
abbrev S64x288x24 : Shape := ⟨3, ![64, 288, 24]⟩
abbrev S64x288 : Shape := ⟨2, ![64, 288]⟩
abbrev S64 : Shape := ⟨1, ![64]⟩
abbrev S24x256 : Shape := ⟨2, ![24, 256]⟩
abbrev S288x128 : Shape := ⟨2, ![288, 128]⟩
abbrev S7x32 : Shape := ⟨2, ![7, 32]⟩
abbrev S32x32 : Shape := ⟨2, ![32, 32]⟩
abbrev S367x64 : Shape := ⟨2, ![367, 64]⟩
abbrev S_ : Shape := ⟨0, ![]⟩
abbrev S64x288x1 : Shape := ⟨3, ![64, 288, 1]⟩
abbrev S64x288x128 : Shape := ⟨3, ![64, 288, 128]⟩
abbrev S64x1 : Shape := ⟨2, ![64, 1]⟩
abbrev S64x32 : Shape := ⟨2, ![64, 32]⟩
abbrev S64x1x32 : Shape := ⟨3, ![64, 1, 32]⟩
abbrev S64x288x32 : Shape := ⟨3, ![64, 288, 32]⟩
abbrev S64x64 : Shape := ⟨2, ![64, 64]⟩
abbrev S64x1x64 : Shape := ⟨3, ![64, 1, 64]⟩
abbrev S64x288x64 : Shape := ⟨3, ![64, 288, 64]⟩
abbrev S64x288x256 : Shape := ⟨3, ![64, 288, 256]⟩
abbrev S64x288x24x256 : Shape := ⟨4, ![64, 288, 24, 256]⟩
abbrev S1x288x24 : Shape := ⟨3, ![1, 288, 24]⟩
abbrev S1x288x256 : Shape := ⟨3, ![1, 288, 256]⟩
abbrev S1x288x24x256 : Shape := ⟨4, ![1, 288, 24, 256]⟩
abbrev S288x24 : Shape := ⟨2, ![288, 24]⟩
abbrev S288x256 : Shape := ⟨2, ![288, 256]⟩
abbrev S288x24x1 : Shape := ⟨3, ![288, 24, 1]⟩
abbrev S1x24x256 : Shape := ⟨3, ![1, 24, 256]⟩
abbrev S288x24x256 : Shape := ⟨3, ![288, 24, 256]⟩
abbrev S288x1x256 : Shape := ⟨3, ![288, 1, 256]⟩

abbrev nBuf : Space → Nat
  | .hbm => 55
  | .vmem => 8
  | .smem => 0
  | _ => 0

abbrev bufTy : (tb : Table) → Fin (tcTables nBuf tb) → BufTy
  | .hbm, ⟨0, _⟩ => ⟨S64x288x24, .f32⟩
  | .hbm, ⟨1, _⟩ => ⟨S64x288, .i32⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S24x256, .f32⟩
  | .hbm, ⟨6, _⟩ => ⟨S24x256, .f32⟩
  | .hbm, ⟨7, _⟩ => ⟨S288x128, .f32⟩
  | .hbm, ⟨8, _⟩ => ⟨S7x32, .f32⟩
  | .hbm, ⟨9, _⟩ => ⟨S32x32, .f32⟩
  | .hbm, ⟨10, _⟩ => ⟨S367x64, .f32⟩
  | .hbm, ⟨11, _⟩ => ⟨S_, .i32⟩
  | .hbm, ⟨12, _⟩ => ⟨S64x288, .i32⟩
  | .hbm, ⟨13, _⟩ => ⟨S64x288, .i1⟩
  | .hbm, ⟨14, _⟩ => ⟨S_, .i32⟩
  | .hbm, ⟨15, _⟩ => ⟨S64x288, .i32⟩
  | .hbm, ⟨16, _⟩ => ⟨S64x288, .i32⟩
  | .hbm, ⟨17, _⟩ => ⟨S64x288, .i32⟩
  | .hbm, ⟨18, _⟩ => ⟨S64x288x1, .i32⟩
  | .hbm, ⟨19, _⟩ => ⟨S64x288x128, .f32⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S64x1, .i32⟩
  | .hbm, ⟨28, _⟩ => ⟨S64x32, .f32⟩
  | .hbm, ⟨29, _⟩ => ⟨S64x1x32, .f32⟩
  | .hbm, ⟨30, _⟩ => ⟨S64x288x32, .f32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S64x1, .i32⟩
  | .hbm, ⟨39, _⟩ => ⟨S64x32, .f32⟩
  | .hbm, ⟨40, _⟩ => ⟨S64x1x32, .f32⟩
  | .hbm, ⟨41, _⟩ => ⟨S64x288x32, .f32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S64x1, .i32⟩
  | .hbm, ⟨50, _⟩ => ⟨S64x64, .f32⟩
  | .hbm, ⟨51, _⟩ => ⟨S64x1x64, .f32⟩
  | .hbm, ⟨52, _⟩ => ⟨S64x288x64, .f32⟩
  | .hbm, ⟨53, _⟩ => ⟨S64x288x256, .f32⟩
  | .hbm, ⟨54, _⟩ => ⟨S64x288x24x256, .f32⟩
  | .local _ .vmem, ⟨0, _⟩ => ⟨S1x288x24, .f32⟩
  | .local _ .vmem, ⟨1, _⟩ => ⟨S1x288x24, .f32⟩
  | .local _ .vmem, ⟨2, _⟩ => ⟨S1x288x256, .f32⟩
  | .local _ .vmem, ⟨3, _⟩ => ⟨S1x288x256, .f32⟩
  | .local _ .vmem, ⟨4, _⟩ => ⟨S24x256, .f32⟩
  | .local _ .vmem, ⟨5, _⟩ => ⟨S24x256, .f32⟩
  | .local _ .vmem, ⟨6, _⟩ => ⟨S1x288x24x256, .f32⟩
  | .local _ .vmem, ⟨7, _⟩ => ⟨S1x288x24x256, .f32⟩
  | _, _ => ⟨S64x288x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x288x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x288x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x288x24x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x288 : S_.BroadcastsInDim S64x288 (![] : Fin 0 → Fin S64x288.rank)
  bcast_S64x288_S64x288x1_0_1 : S64x288.BroadcastsInDim S64x288x1 (![0, 1] : Fin 2 → Fin S64x288x1.rank)
  bcast_S_S64 : S_.BroadcastsInDim S64 (![] : Fin 0 → Fin S64.rank)
  bcast_S64_S64x1_0 : S64.BroadcastsInDim S64x1 (![0] : Fin 1 → Fin S64x1.rank)
  bcast_S64x32_S64x1x32_0_2 : S64x32.BroadcastsInDim S64x1x32 (![0, 2] : Fin 2 → Fin S64x1x32.rank)
  bcast_S64x1x32_S64x288x32_0_1_2 : S64x1x32.BroadcastsInDim S64x288x32 (![0, 1, 2] : Fin 3 → Fin S64x288x32.rank)
  bcast_S64x64_S64x1x64_0_2 : S64x64.BroadcastsInDim S64x1x64 (![0, 2] : Fin 2 → Fin S64x1x64.rank)
  bcast_S64x1x64_S64x288x64_0_1_2 : S64x1x64.BroadcastsInDim S64x288x64 (![0, 1, 2] : Fin 3 → Fin S64x288x64.rank)
  concatenates_S64x288x128_S64x288x32_S64x288x32_S64x288x64_S64x288x256_d2 : Shape.Concatenates [S64x288x128, S64x288x32, S64x288x32, S64x288x64] S64x288x256 2
  inb_S1x288x24_S1x288x24_0_0_0 : ∀ a, (![0, 0, 0] : Fin 3 → Nat) a + S1x288x24.size a ≤ S1x288x24.size a
  h_S1x288x24 : 0 < S1x288x24.numel
  shapeCasts_S1x288x24_S288x24 : S1x288x24.ShapeCasts S288x24
  inb_S24x256_S24x256_0_0 : ∀ a, (![0, 0] : Fin 2 → Nat) a + S24x256.size a ≤ S24x256.size a
  h_S24x256 : 0 < S24x256.numel
  inb_S1x288x256_S1x288x256_0_0_0 : ∀ a, (![0, 0, 0] : Fin 3 → Nat) a + S1x288x256.size a ≤ S1x288x256.size a
  h_S1x288x256 : 0 < S1x288x256.numel
  shapeCasts_S1x288x256_S288x256 : S1x288x256.ShapeCasts S288x256
  shapeCasts_S288x24_S288x24x1 : S288x24.ShapeCasts S288x24x1
  shapeCasts_S24x256_S1x24x256 : S24x256.ShapeCasts S1x24x256
  broadcasts_S288x24x1_S288x24x256 : S288x24x1.Broadcasts S288x24x256
  broadcasts_S1x24x256_S288x24x256 : S1x24x256.Broadcasts S288x24x256
  shapeCasts_S288x256_S288x1x256 : S288x256.ShapeCasts S288x1x256
  broadcasts_S288x1x256_S288x24x256 : S288x1x256.Broadcasts S288x24x256
  inb_S1x288x24x256_S1x288x24x256_0_0_0_0 : ∀ a, (![0, 0, 0, 0] : Fin 4 → Nat) a + S1x288x24x256.size a ≤ S1x288x24x256.size a
  h_S1x288x24x256 : 0 < S1x288x24x256.numel
  shapeCasts_S1x288x24x256_S288x24x256 : S1x288x24x256.ShapeCasts S288x24x256
  shapeCasts_S288x24x256_S1x288x24x256 : S288x24x256.ShapeCasts S1x288x24x256
  gather_S288x128_S64x288x1_S64x288x128_2_0_n_n_0_2_1128_wf : GatherDims.WF S288x128 S64x288x1 S64x288x128 [2] [0] [] [0] [] 2 ![1, 128]
  gather_S7x32_S64x1_S64x32_1_0_n_n_0_1_132_wf : GatherDims.WF S7x32 S64x1 S64x32 [1] [0] [] [0] [] 1 ![1, 32]
  gather_S32x32_S64x1_S64x32_1_0_n_n_0_1_132_wf : GatherDims.WF S32x32 S64x1 S64x32 [1] [0] [] [0] [] 1 ![1, 32]
  gather_S367x64_S64x1_S64x64_1_0_n_n_0_1_164_wf : GatherDims.WF S367x64 S64x1 S64x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x24.size a ≤ S64x288x24.size a
  hwx0_0 : ∀ i : grid0.Coords, EltTy.bits .f32 = 32 ∨ (Rect.block (s := S64x288x24) S1x288x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x288x256.size a ≤ S64x288x256.size a
  hwx0_1 : ∀ i : grid0.Coords, EltTy.bits .f32 = 32 ∨ (Rect.block (s := S64x288x256) S1x288x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x256.size a ≤ S24x256.size a
  hwx0_2 : ∀ i : grid0.Coords, EltTy.bits .f32 = 32 ∨ (Rect.block (s := S24x256) S24x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x256.size a ≤ S24x256.size a
  hwx0_3 : ∀ i : grid0.Coords, EltTy.bits .f32 = 32 ∨ (Rect.block (s := S24x256) S24x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x288x24x256.size a ≤ S64x288x24x256.size a
  hwx0_4 : ∀ i : grid0.Coords, EltTy.bits .f32 = 32 ∨ (Rect.block (s := S64x288x24x256) S1x288x24x256.size (cc0_transform_4 i) (hinb0_4 i)).WholeWords (EltTy.packing .f32)

variable [Facts₀]

def gather_S288x128_S64x288x1_S64x288x128_2_0_n_n_0_2_1128 : GatherDims S288x128 S64x288x1 S64x288x128 where
  offsetDims := [2]
  collapsedSliceDims := [0]
  operandBatchingDims := []
  startIndicesBatchingDims := []
  startIndexMap := [0]
  indexVectorDim := 2
  sliceSizes := ![1, 128]
  wf := gather_S288x128_S64x288x1_S64x288x128_2_0_n_n_0_2_1128_wf
def gather_S7x32_S64x1_S64x32_1_0_n_n_0_1_132 : GatherDims S7x32 S64x1 S64x32 where
  offsetDims := [1]
  collapsedSliceDims := [0]
  operandBatchingDims := []
  startIndicesBatchingDims := []
  startIndexMap := [0]
  indexVectorDim := 1
  sliceSizes := ![1, 32]
  wf := gather_S7x32_S64x1_S64x32_1_0_n_n_0_1_132_wf
def gather_S32x32_S64x1_S64x32_1_0_n_n_0_1_132 : GatherDims S32x32 S64x1 S64x32 where
  offsetDims := [1]
  collapsedSliceDims := [0]
  operandBatchingDims := []
  startIndicesBatchingDims := []
  startIndexMap := [0]
  indexVectorDim := 1
  sliceSizes := ![1, 32]
  wf := gather_S32x32_S64x1_S64x32_1_0_n_n_0_1_132_wf
def gather_S367x64_S64x1_S64x64_1_0_n_n_0_1_164 : GatherDims S367x64 S64x1 S64x64 where
  offsetDims := [1]
  collapsedSliceDims := [0]
  operandBatchingDims := []
  startIndicesBatchingDims := []
  startIndexMap := [0]
  indexVectorDim := 1
  sliceSizes := ![1, 64]
  wf := gather_S367x64_S64x1_S64x64_1_0_n_n_0_1_164_wf

abbrev win0_0 : Pipeline.Window sig grid0 :=
  Pipeline.Window.ofSpec (Memref.whole main_arg0) S1x288x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1x288x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S24x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S24x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x288x24x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x288x24 : Shape := ⟨3, ![64, 288, 24]⟩
abbrev S64x288 : Shape := ⟨2, ![64, 288]⟩
abbrev S64 : Shape := ⟨1, ![64]⟩
abbrev S24x256 : Shape := ⟨2, ![24, 256]⟩
abbrev S288x128 : Shape := ⟨2, ![288, 128]⟩
abbrev S7x32 : Shape := ⟨2, ![7, 32]⟩
abbrev S32x32 : Shape := ⟨2, ![32, 32]⟩
abbrev S367x64 : Shape := ⟨2, ![367, 64]⟩
abbrev S64x288x24x1 : Shape := ⟨4, ![64, 288, 24, 1]⟩
abbrev S1x1x24x256 : Shape := ⟨4, ![1, 1, 24, 256]⟩
abbrev S64x288x24x256 : Shape := ⟨4, ![64, 288, 24, 256]⟩
abbrev S_ : Shape := ⟨0, ![]⟩
abbrev S64x288x1 : Shape := ⟨3, ![64, 288, 1]⟩
abbrev S64x288x128 : Shape := ⟨3, ![64, 288, 128]⟩
abbrev S64x1 : Shape := ⟨2, ![64, 1]⟩
abbrev S64x32 : Shape := ⟨2, ![64, 32]⟩
abbrev S64x1x32 : Shape := ⟨3, ![64, 1, 32]⟩
abbrev S64x288x32 : Shape := ⟨3, ![64, 288, 32]⟩
abbrev S64x64 : Shape := ⟨2, ![64, 64]⟩
abbrev S64x1x64 : Shape := ⟨3, ![64, 1, 64]⟩
abbrev S64x288x64 : Shape := ⟨3, ![64, 288, 64]⟩
abbrev S64x288x256 : Shape := ⟨3, ![64, 288, 256]⟩
abbrev S64x288x1x256 : Shape := ⟨4, ![64, 288, 1, 256]⟩

abbrev nBuf : Space → Nat
  | .hbm => 65
  | .vmem => 0
  | .smem => 0
  | _ => 0

abbrev bufTy : (tb : Table) → Fin (tcTables nBuf tb) → BufTy
  | .hbm, ⟨0, _⟩ => ⟨S64x288x24, .f32⟩
  | .hbm, ⟨1, _⟩ => ⟨S64x288, .i32⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S24x256, .f32⟩
  | .hbm, ⟨6, _⟩ => ⟨S24x256, .f32⟩
  | .hbm, ⟨7, _⟩ => ⟨S288x128, .f32⟩
  | .hbm, ⟨8, _⟩ => ⟨S7x32, .f32⟩
  | .hbm, ⟨9, _⟩ => ⟨S32x32, .f32⟩
  | .hbm, ⟨10, _⟩ => ⟨S367x64, .f32⟩
  | .hbm, ⟨11, _⟩ => ⟨S64x288x24x1, .f32⟩
  | .hbm, ⟨12, _⟩ => ⟨S1x1x24x256, .f32⟩
  | .hbm, ⟨13, _⟩ => ⟨S64x288x24x256, .f32⟩
  | .hbm, ⟨14, _⟩ => ⟨S64x288x24x256, .f32⟩
  | .hbm, ⟨15, _⟩ => ⟨S64x288x24x256, .f32⟩
  | .hbm, ⟨16, _⟩ => ⟨S1x1x24x256, .f32⟩
  | .hbm, ⟨17, _⟩ => ⟨S64x288x24x256, .f32⟩
  | .hbm, ⟨18, _⟩ => ⟨S64x288x24x256, .f32⟩
  | .hbm, ⟨19, _⟩ => ⟨S_, .i32⟩
  | .hbm, ⟨20, _⟩ => ⟨S64x288, .i32⟩
  | .hbm, ⟨21, _⟩ => ⟨S64x288, .i1⟩
  | .hbm, ⟨22, _⟩ => ⟨S_, .i32⟩
  | .hbm, ⟨23, _⟩ => ⟨S64x288, .i32⟩
  | .hbm, ⟨24, _⟩ => ⟨S64x288, .i32⟩
  | .hbm, ⟨25, _⟩ => ⟨S64x288, .i32⟩
  | .hbm, ⟨26, _⟩ => ⟨S64x288x1, .i32⟩
  | .hbm, ⟨27, _⟩ => ⟨S64x288x128, .f32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64x1, .i32⟩
  | .hbm, ⟨36, _⟩ => ⟨S64x32, .f32⟩
  | .hbm, ⟨37, _⟩ => ⟨S64x1x32, .f32⟩
  | .hbm, ⟨38, _⟩ => ⟨S64x288x32, .f32⟩
  | .hbm, ⟨39, _⟩ => ⟨S_, .i32⟩
  | .hbm, ⟨40, _⟩ => ⟨S64, .i32⟩
  | .hbm, ⟨41, _⟩ => ⟨S64, .i1⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S64, .i32⟩
  | .hbm, ⟨46, _⟩ => ⟨S64x1, .i32⟩
  | .hbm, ⟨47, _⟩ => ⟨S64x32, .f32⟩
  | .hbm, ⟨48, _⟩ => ⟨S64x1x32, .f32⟩
  | .hbm, ⟨49, _⟩ => ⟨S64x288x32, .f32⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S_, .i32⟩
  | .hbm, ⟨54, _⟩ => ⟨S64, .i32⟩
  | .hbm, ⟨55, _⟩ => ⟨S64, .i32⟩
  | .hbm, ⟨56, _⟩ => ⟨S64, .i32⟩
  | .hbm, ⟨57, _⟩ => ⟨S64x1, .i32⟩
  | .hbm, ⟨58, _⟩ => ⟨S64x64, .f32⟩
  | .hbm, ⟨59, _⟩ => ⟨S64x1x64, .f32⟩
  | .hbm, ⟨60, _⟩ => ⟨S64x288x64, .f32⟩
  | .hbm, ⟨61, _⟩ => ⟨S64x288x256, .f32⟩
  | .hbm, ⟨62, _⟩ => ⟨S64x288x1x256, .f32⟩
  | .hbm, ⟨63, _⟩ => ⟨S64x288x24x256, .f32⟩
  | .hbm, ⟨64, _⟩ => ⟨S64x288x24x256, .f32⟩
  | _, _ => ⟨S64x288x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  bcast_S64x288x24_S64x288x24x1_0_1_2 : S64x288x24.BroadcastsInDim S64x288x24x1 (![0, 1, 2] : Fin 3 → Fin S64x288x24x1.rank)
  bcast_S24x256_S1x1x24x256_2_3 : S24x256.BroadcastsInDim S1x1x24x256 (![2, 3] : Fin 2 → Fin S1x1x24x256.rank)
  bcast_S64x288x24x1_S64x288x24x256_0_1_2_3 : S64x288x24x1.BroadcastsInDim S64x288x24x256 (![0, 1, 2, 3] : Fin 4 → Fin S64x288x24x256.rank)
  bcast_S1x1x24x256_S64x288x24x256_0_1_2_3 : S1x1x24x256.BroadcastsInDim S64x288x24x256 (![0, 1, 2, 3] : Fin 4 → Fin S64x288x24x256.rank)
  bcast_S_S64x288 : S_.BroadcastsInDim S64x288 (![] : Fin 0 → Fin S64x288.rank)
  bcast_S64x288_S64x288x1_0_1 : S64x288.BroadcastsInDim S64x288x1 (![0, 1] : Fin 2 → Fin S64x288x1.rank)
  bcast_S_S64 : S_.BroadcastsInDim S64 (![] : Fin 0 → Fin S64.rank)
  bcast_S64_S64x1_0 : S64.BroadcastsInDim S64x1 (![0] : Fin 1 → Fin S64x1.rank)
  bcast_S64x32_S64x1x32_0_2 : S64x32.BroadcastsInDim S64x1x32 (![0, 2] : Fin 2 → Fin S64x1x32.rank)
  bcast_S64x1x32_S64x288x32_0_1_2 : S64x1x32.BroadcastsInDim S64x288x32 (![0, 1, 2] : Fin 3 → Fin S64x288x32.rank)
  bcast_S64x64_S64x1x64_0_2 : S64x64.BroadcastsInDim S64x1x64 (![0, 2] : Fin 2 → Fin S64x1x64.rank)
  bcast_S64x1x64_S64x288x64_0_1_2 : S64x1x64.BroadcastsInDim S64x288x64 (![0, 1, 2] : Fin 3 → Fin S64x288x64.rank)
  concatenates_S64x288x128_S64x288x32_S64x288x32_S64x288x64_S64x288x256_d2 : Shape.Concatenates [S64x288x128, S64x288x32, S64x288x32, S64x288x64] S64x288x256 2
  bcast_S64x288x256_S64x288x1x256_0_1_3 : S64x288x256.BroadcastsInDim S64x288x1x256 (![0, 1, 3] : Fin 3 → Fin S64x288x1x256.rank)
  bcast_S64x288x1x256_S64x288x24x256_0_1_2_3 : S64x288x1x256.BroadcastsInDim S64x288x24x256 (![0, 1, 2, 3] : Fin 4 → Fin S64x288x24x256.rank)
  gather_S288x128_S64x288x1_S64x288x128_2_0_n_n_0_2_1128_wf : GatherDims.WF S288x128 S64x288x1 S64x288x128 [2] [0] [] [0] [] 2 ![1, 128]
  gather_S7x32_S64x1_S64x32_1_0_n_n_0_1_132_wf : GatherDims.WF S7x32 S64x1 S64x32 [1] [0] [] [0] [] 1 ![1, 32]
  gather_S32x32_S64x1_S64x32_1_0_n_n_0_1_132_wf : GatherDims.WF S32x32 S64x1 S64x32 [1] [0] [] [0] [] 1 ![1, 32]
  gather_S367x64_S64x1_S64x64_1_0_n_n_0_1_164_wf : GatherDims.WF S367x64 S64x1 S64x64 [1] [0] [] [0] [] 1 ![1, 64]

variable [Facts₀]

def gather_S288x128_S64x288x1_S64x288x128_2_0_n_n_0_2_1128 : GatherDims S288x128 S64x288x1 S64x288x128 where
  offsetDims := [2]
  collapsedSliceDims := [0]
  operandBatchingDims := []
  startIndicesBatchingDims := []
  startIndexMap := [0]
  indexVectorDim := 2
  sliceSizes := ![1, 128]
  wf := gather_S288x128_S64x288x1_S64x288x128_2_0_n_n_0_2_1128_wf
def gather_S7x32_S64x1_S64x32_1_0_n_n_0_1_132 : GatherDims S7x32 S64x1 S64x32 where
  offsetDims := [1]
  collapsedSliceDims := [0]
  operandBatchingDims := []
  startIndicesBatchingDims := []
  startIndexMap := [0]
  indexVectorDim := 1
  sliceSizes := ![1, 32]
  wf := gather_S7x32_S64x1_S64x32_1_0_n_n_0_1_132_wf
def gather_S32x32_S64x1_S64x32_1_0_n_n_0_1_132 : GatherDims S32x32 S64x1 S64x32 where
  offsetDims := [1]
  collapsedSliceDims := [0]
  operandBatchingDims := []
  startIndicesBatchingDims := []
  startIndexMap := [0]
  indexVectorDim := 1
  sliceSizes := ![1, 32]
  wf := gather_S32x32_S64x1_S64x32_1_0_n_n_0_1_132_wf
def gather_S367x64_S64x1_S64x64_1_0_n_n_0_1_164 : GatherDims S367x64 S64x1 S64x64 where
  offsetDims := [1]
  collapsedSliceDims := [0]
  operandBatchingDims := []
  startIndicesBatchingDims := []
  startIndexMap := [0]
  indexVectorDim := 1
  sliceSizes := ![1, 64]
  wf := gather_S367x64_S64x1_S64x64_1_0_n_n_0_1_164_wf

class Facts : Prop extends Facts₀ where

variable [Facts]
-- ==== Proof.RegionBits.lean ====
/-
  The region of `Kernel` runs to its end and leaves the argument arrays as it found them.

  @main is forty-three host operations (index clamps, four table look-ups, their broadcasts, one concatenation
  into the positional array of shape [64, 288, 256]) followed by one pipelined region over a grid of 64 points,
  one per batch row. None of the host operations writes an argument array, so the region finds every argument as
  launched. At point `t` the body reads four input blocks — row `t` of the features (288 × 24), row `t` of the
  positional array (288 × 256), the whole weight and bias matrices (24 × 256 each) — and overwrites the whole output
  block (288 × 24 × 256) by one store whose value is a pure function of the four blocks read. So after the body the
  output's staging buffer holds exactly that value, the inputs' buffers hold their blocks, and nothing else is
  touched; the launch theorem of the pipeline library turns this per-point statement into the run of @main.
  Everything here is stated at any float instance.
-/
import proofs.«115655_j8890582303480_1_alg».proof.Proof.Gen.Kernel.Launch
import proofs.«115655_j8890582303480_1_alg».proof.Proof.Gen.Kernel.Skeleton
import proofs.«115655_j8890582303480_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The buffers of core `c` after the host operations that precede the region. -/
abbrev atEntry (c : Dev nD) (b : Ref sig .tc) : Buf (Elt F) ((c : Thread nD τ).loc b) :=
  StableHlo.after hostOps0 (fun b => m (c, b)) b

/-- No host operation allocates anything. -/
theorem hostOps0_fresh : (hostOps0 : List (HloOp τ sig (Elt F))).Forall fun op => op.fresh = ∅ := by
  simp only [List.Forall]; repeat' constructor

/-- @main is the host operations, then the region. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- Argument 0 is the result of no host operation: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 1 is the result of no host operation: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 2 is the result of no host operation: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 3 is the result of no host operation: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 4 is the result of no host operation: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 5 is the result of no host operation: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 6 is the result of no host operation: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 7 is the result of no host operation: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 8 is the result of no host operation: the region finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 9 is the result of no host operation: the region finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 10 is the result of no host operation: the region finds it as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's staging buffer holds the window's block at every point: where the pipeline does not fetch it
    the block index has not moved, and the body leaves the block in place. -/
theorem holds_block0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds the window's block at every point: where the pipeline does not fetch it
    the block index has not moved, and the body leaves the block in place. -/
theorem holds_block1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds the window's block at every point: where the pipeline does not fetch it
    the block index has not moved, and the body leaves the block in place. -/
theorem holds_block2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds the window's block at every point: where the pipeline does not fetch it
    the block index has not moved, and the body leaves the block in place. -/
theorem holds_block3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The one rectangle the body stores through: the whole output block. -/
abbrev wholeOut : Rect S1x288x24x256 :=
  Rect.unit (s := S1x288x24x256) ![0, 0, 0, 0] S1x288x24x256.size inb_S1x288x24x256_S1x288x24x256_0_0_0_0
abbrev wholeFeat : Rect S1x288x24 := Rect.unit (s := S1x288x24) ![0, 0, 0] S1x288x24.size inb_S1x288x24_S1x288x24_0_0_0
abbrev wholePos : Rect S1x288x256 := Rect.unit (s := S1x288x256) ![0, 0, 0] S1x288x256.size inb_S1x288x256_S1x288x256_0_0_0
abbrev wholeMat : Rect S24x256 := Rect.unit (s := S24x256) ![0, 0] S24x256.size inb_S24x256_S24x256_0_0

/-- What the body leaves in the output's staging buffer, from the four input blocks: its single store. -/
def stored (x0 : Vec F S1x288x24 .f32) (x1 : Vec F S1x288x256 .f32) (x2 x3 : Vec F S24x256 .f32) : Vec F S1x288x24x256 .f32 :=
  View.canon [⟨wholeOut, k0_pay1 (View.ld x0 wholeFeat) (View.ld x2 wholeMat) (View.ld x3 wholeMat) (View.ld x1 wholePos)⟩]

/-- The store's rectangle is the whole block. -/
theorem stored_covers (p0 : Vec F S1x288x24x256 .f32) (y : S1x288x24x256.Idx) :
    ∃ pc ∈ ([⟨wholeOut, p0⟩] : List (View.Piece (Elt F) S1x288x24x256 .f32)), y ∈ pc.1.set :=
  View.cover_of_tiled [⟨wholeOut, p0⟩] S1x288x24x256.size (by rfl) y

set_option maxHeartbeats 1000000 in
/-- The body on whole staging memrefs — the inputs' at contents `x0 … x3`, the output's at anything — returns with the
    inputs' as they were and the output's at `stored` of them. -/
theorem body_triple (c : Dev nD) (E : Set ℕ) (i : grid0.Coords)
    (arg1 : Memref sig .tc .vmem S1x288x24 .f32) (harg1 : arg1.IsWhole) (arg2 : Memref sig .tc .vmem S1x288x256 .f32) (harg2 : arg2.IsWhole)
    (arg3 : Memref sig .tc .vmem S24x256 .f32) (harg3 : arg3.IsWhole) (arg4 : Memref sig .tc .vmem S24x256 .f32) (harg4 : arg4.IsWhole)
    (arg5 : Memref sig .tc .vmem S1x288x24x256 .f32) (harg5 : arg5.IsWhole)
    (x0 : Vec F S1x288x24 .f32) (x1 : Vec F S1x288x256 .f32) (x2 x3 : Vec F S24x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (stored x0 x1 x2 x3)) -∗ K ⟨⟩))
      ⊢ wp frame (wpE (defs₀ (F := F)) Variants.none c none) E (cc0__embed_kernel i arg1 harg1 arg2 harg2 arg3 harg3 arg4 harg4 arg5 harg5) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The proof data of the pipeline -/

/-- On core `c`: the arrays as the region finds them; after the body at point `t` each input's buffer at its block
    and the output's at `stored` of the four blocks; the invariant is the untouched rest; full shares, nothing owed. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => stored (blockAt m c 0 t) (blockAt m c 1 t) (blockAt m c 2 t) (blockAt m c 3 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after0 (c : Dev nD) (t : Fin cfg0.N) : (pdata m 0 c).after 0 t = blockAt m c 0 t := by dsimp only [pdata]
theorem after1 (c : Dev nD) (t : Fin cfg0.N) : (pdata m 0 c).after 1 t = blockAt m c 1 t := by dsimp only [pdata]
theorem after2 (c : Dev nD) (t : Fin cfg0.N) : (pdata m 0 c).after 2 t = blockAt m c 2 t := by dsimp only [pdata]
theorem after3 (c : Dev nD) (t : Fin cfg0.N) : (pdata m 0 c).after 3 t = blockAt m c 3 t := by dsimp only [pdata]
theorem after4 (c : Dev nD) (t : Fin cfg0.N) :
    (pdata m 0 c).after 4 t = stored (blockAt m c 0 t) (blockAt m c 1 t) (blockAt m c 2 t) (blockAt m c 3 t) := by dsimp only [pdata]

theorem before0 (c : Dev nD) (t : Fin cfg0.N) (d) : (pdata m 0 c).before 0 t d = blockAt m c 0 t :=
  holds_block0 m (pdata m 0 c) (pdata_A m c 0) (after0 m c) t d
theorem before1 (c : Dev nD) (t : Fin cfg0.N) (d) : (pdata m 0 c).before 1 t d = blockAt m c 1 t :=
  holds_block1 m (pdata m 0 c) (pdata_A m c 1) (after1 m c) t d
theorem before2 (c : Dev nD) (t : Fin cfg0.N) (d) : (pdata m 0 c).before 2 t d = blockAt m c 2 t :=
  holds_block2 m (pdata m 0 c) (pdata_A m c 2) (after2 m c) t d
theorem before3 (c : Dev nD) (t : Fin cfg0.N) (d) : (pdata m 0 c).before 3 t d = blockAt m c 3 t :=
  holds_block3 m (pdata m 0 c) (pdata_A m c 3) (after3 m c) t d

/-! ## The body obligation -/

/-- What the body is called with at point `t`, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

/-- The body at any point: the inputs' memrefs hold their blocks, so `body_triple` applies; the invariant and what
    the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (pdata m 0 c).Φ t.succ = (pdata m 0 c).Φ t.castSucc from rfl,
    show (pdata m 0 c).owesAt () t.succ = (pdata m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- Every weakly fair execution of @main terminates; every array of the pipeline ends at what the library computes
    from the proof data, every other unscoped buffer as the region found it. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := main_to_region m Variants.none) (hA := pdata_A m) (hΦ := fun _ _ => rfl)

/-- A final state of the run has every argument array as launched: each is either an input of the pipeline, which the
    pipeline only reads, or a buffer the pipeline does not touch; and no host operation writes it. -/
theorem kept_of_post (r : PUnit × MemSt nD τ sig (Elt F)) (h : Pipeline.FramePost cfgs (pdata m) 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨
    ((h c).1 0).trans (((pdata m 0 c).arrAt_in 0 rfl _).trans ((pdata_A m c 0).trans (atEntry_arg0 m c))),
    ((h c).2 main_arg1 (Pipeline.mem_restRefs_of main_arg1 (by decide) (by decide))).trans (atEntry_arg1 m c),
    ((h c).2 main_arg2 (Pipeline.mem_restRefs_of main_arg2 (by decide) (by decide))).trans (atEntry_arg2 m c),
    ((h c).2 main_arg3 (Pipeline.mem_restRefs_of main_arg3 (by decide) (by decide))).trans (atEntry_arg3 m c),
    ((h c).2 main_arg4 (Pipeline.mem_restRefs_of main_arg4 (by decide) (by decide))).trans (atEntry_arg4 m c),
    ((h c).1 2).trans (((pdata m 0 c).arrAt_in 2 rfl _).trans ((pdata_A m c 2).trans (atEntry_arg5 m c))),
    ((h c).1 3).trans (((pdata m 0 c).arrAt_in 3 rfl _).trans ((pdata_A m c 3).trans (atEntry_arg6 m c))),
    ((h c).2 main_arg7 (Pipeline.mem_restRefs_of main_arg7 (by decide) (by decide))).trans (atEntry_arg7 m c),
    ((h c).2 main_arg8 (Pipeline.mem_restRefs_of main_arg8 (by decide) (by decide))).trans (atEntry_arg8 m c),
    ((h c).2 main_arg9 (Pipeline.mem_restRefs_of main_arg9 (by decide) (by decide))).trans (atEntry_arg9 m c),
    ((h c).2 main_arg10 (Pipeline.mem_restRefs_of main_arg10 (by decide) (by decide))).trans (atEntry_arg10 m c)⟩

/-- Every weakly fair execution of @main terminates with the argument arrays as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of_post m r h c) (run_main m ρ)

end Cert.Kernel.Region

end
-- ==== Proof.RegionIdeal.lean ====
/-
  The region of `KernelIdeal` runs to its end and leaves the argument arrays as it found them.

  @main is forty-three host operations (index clamps, four table look-ups, their broadcasts, one concatenation
  into the positional array of shape [64, 288, 256]) followed by one pipelined region over a grid of 64 points,
  one per batch row. None of the host operations writes an argument array, so the region finds every argument as
  launched. At point `t` the body reads four input blocks — row `t` of the features (288 × 24), row `t` of the
  positional array (288 × 256), the whole weight and bias matrices (24 × 256 each) — and overwrites the whole output
  block (288 × 24 × 256) by one store whose value is a pure function of the four blocks read. So after the body the
  output's staging buffer holds exactly that value, the inputs' buffers hold their blocks, and nothing else is
  touched; the launch theorem of the pipeline library turns this per-point statement into the run of @main.
  Everything here is stated at any float instance.
-/
import proofs.«115655_j8890582303480_1_alg».proof.Proof.Gen.KernelIdeal.Launch
import proofs.«115655_j8890582303480_1_alg».proof.Proof.Gen.KernelIdeal.Skeleton
import proofs.«115655_j8890582303480_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The buffers of core `c` after the host operations that precede the region. -/
abbrev atEntry (c : Dev nD) (b : Ref sig .tc) : Buf (Elt F) ((c : Thread nD τ).loc b) :=
  StableHlo.after hostOps0 (fun b => m (c, b)) b

/-- No host operation allocates anything. -/
theorem hostOps0_fresh : (hostOps0 : List (HloOp τ sig (Elt F))).Forall fun op => op.fresh = ∅ := by
  simp only [List.Forall]; repeat' constructor

/-- @main is the host operations, then the region. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- Argument 0 is the result of no host operation: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 1 is the result of no host operation: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 2 is the result of no host operation: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 3 is the result of no host operation: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 4 is the result of no host operation: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 5 is the result of no host operation: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 6 is the result of no host operation: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 7 is the result of no host operation: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 8 is the result of no host operation: the region finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 9 is the result of no host operation: the region finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Argument 10 is the result of no host operation: the region finds it as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's staging buffer holds the window's block at every point: where the pipeline does not fetch it
    the block index has not moved, and the body leaves the block in place. -/
theorem holds_block0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds the window's block at every point: where the pipeline does not fetch it
    the block index has not moved, and the body leaves the block in place. -/
theorem holds_block1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds the window's block at every point: where the pipeline does not fetch it
    the block index has not moved, and the body leaves the block in place. -/
theorem holds_block2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds the window's block at every point: where the pipeline does not fetch it
    the block index has not moved, and the body leaves the block in place. -/
theorem holds_block3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The one rectangle the body stores through: the whole output block. -/
abbrev wholeOut : Rect S1x288x24x256 :=
  Rect.unit (s := S1x288x24x256) ![0, 0, 0, 0] S1x288x24x256.size inb_S1x288x24x256_S1x288x24x256_0_0_0_0
abbrev wholeFeat : Rect S1x288x24 := Rect.unit (s := S1x288x24) ![0, 0, 0] S1x288x24.size inb_S1x288x24_S1x288x24_0_0_0
abbrev wholePos : Rect S1x288x256 := Rect.unit (s := S1x288x256) ![0, 0, 0] S1x288x256.size inb_S1x288x256_S1x288x256_0_0_0
abbrev wholeMat : Rect S24x256 := Rect.unit (s := S24x256) ![0, 0] S24x256.size inb_S24x256_S24x256_0_0

/-- What the body leaves in the output's staging buffer, from the four input blocks: its single store. -/
def stored (x0 : Vec F S1x288x24 .f32) (x1 : Vec F S1x288x256 .f32) (x2 x3 : Vec F S24x256 .f32) : Vec F S1x288x24x256 .f32 :=
  View.canon [⟨wholeOut, k0_pay1 (View.ld x0 wholeFeat) (View.ld x2 wholeMat) (View.ld x3 wholeMat) (View.ld x1 wholePos)⟩]

/-- The store's rectangle is the whole block. -/
theorem stored_covers (p0 : Vec F S1x288x24x256 .f32) (y : S1x288x24x256.Idx) :
    ∃ pc ∈ ([⟨wholeOut, p0⟩] : List (View.Piece (Elt F) S1x288x24x256 .f32)), y ∈ pc.1.set :=
  View.cover_of_tiled [⟨wholeOut, p0⟩] S1x288x24x256.size (by rfl) y

set_option maxHeartbeats 1000000 in
/-- The body on whole staging memrefs — the inputs' at contents `x0 … x3`, the output's at anything — returns with the
    inputs' as they were and the output's at `stored` of them. -/
theorem body_triple (c : Dev nD) (E : Set ℕ) (i : grid0.Coords)
    (arg1 : Memref sig .tc .vmem S1x288x24 .f32) (harg1 : arg1.IsWhole) (arg2 : Memref sig .tc .vmem S1x288x256 .f32) (harg2 : arg2.IsWhole)
    (arg3 : Memref sig .tc .vmem S24x256 .f32) (harg3 : arg3.IsWhole) (arg4 : Memref sig .tc .vmem S24x256 .f32) (harg4 : arg4.IsWhole)
    (arg5 : Memref sig .tc .vmem S1x288x24x256 .f32) (harg5 : arg5.IsWhole)
    (x0 : Vec F S1x288x24 .f32) (x1 : Vec F S1x288x256 .f32) (x2 x3 : Vec F S24x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (stored x0 x1 x2 x3)) -∗ K ⟨⟩))
      ⊢ wp frame (wpE (defs₀ (F := F)) Variants.none c none) E (cc0__embed_kernel i arg1 harg1 arg2 harg2 arg3 harg3 arg4 harg4 arg5 harg5) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The proof data of the pipeline -/

/-- On core `c`: the arrays as the region finds them; after the body at point `t` each input's buffer at its block
    and the output's at `stored` of the four blocks; the invariant is the untouched rest; full shares, nothing owed. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => stored (blockAt m c 0 t) (blockAt m c 1 t) (blockAt m c 2 t) (blockAt m c 3 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after0 (c : Dev nD) (t : Fin cfg0.N) : (pdata m 0 c).after 0 t = blockAt m c 0 t := by dsimp only [pdata]
theorem after1 (c : Dev nD) (t : Fin cfg0.N) : (pdata m 0 c).after 1 t = blockAt m c 1 t := by dsimp only [pdata]
theorem after2 (c : Dev nD) (t : Fin cfg0.N) : (pdata m 0 c).after 2 t = blockAt m c 2 t := by dsimp only [pdata]
theorem after3 (c : Dev nD) (t : Fin cfg0.N) : (pdata m 0 c).after 3 t = blockAt m c 3 t := by dsimp only [pdata]
theorem after4 (c : Dev nD) (t : Fin cfg0.N) :
    (pdata m 0 c).after 4 t = stored (blockAt m c 0 t) (blockAt m c 1 t) (blockAt m c 2 t) (blockAt m c 3 t) := by dsimp only [pdata]

theorem before0 (c : Dev nD) (t : Fin cfg0.N) (d) : (pdata m 0 c).before 0 t d = blockAt m c 0 t :=
  holds_block0 m (pdata m 0 c) (pdata_A m c 0) (after0 m c) t d
theorem before1 (c : Dev nD) (t : Fin cfg0.N) (d) : (pdata m 0 c).before 1 t d = blockAt m c 1 t :=
  holds_block1 m (pdata m 0 c) (pdata_A m c 1) (after1 m c) t d
theorem before2 (c : Dev nD) (t : Fin cfg0.N) (d) : (pdata m 0 c).before 2 t d = blockAt m c 2 t :=
  holds_block2 m (pdata m 0 c) (pdata_A m c 2) (after2 m c) t d
theorem before3 (c : Dev nD) (t : Fin cfg0.N) (d) : (pdata m 0 c).before 3 t d = blockAt m c 3 t :=
  holds_block3 m (pdata m 0 c) (pdata_A m c 3) (after3 m c) t d

/-! ## The body obligation -/

/-- What the body is called with at point `t`, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

/-- The body at any point: the inputs' memrefs hold their blocks, so `body_triple` applies; the invariant and what
    the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (pdata m 0 c).Φ t.succ = (pdata m 0 c).Φ t.castSucc from rfl,
    show (pdata m 0 c).owesAt () t.succ = (pdata m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- Every weakly fair execution of @main terminates; every array of the pipeline ends at what the library computes
    from the proof data, every other unscoped buffer as the region found it. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := main_to_region m Variants.none) (hA := pdata_A m) (hΦ := fun _ _ => rfl)

/-- A final state of the run has every argument array as launched: each is either an input of the pipeline, which the
    pipeline only reads, or a buffer the pipeline does not touch; and no host operation writes it. -/
theorem kept_of_post (r : PUnit × MemSt nD τ sig (Elt F)) (h : Pipeline.FramePost cfgs (pdata m) 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨
    ((h c).1 0).trans (((pdata m 0 c).arrAt_in 0 rfl _).trans ((pdata_A m c 0).trans (atEntry_arg0 m c))),
    ((h c).2 main_arg1 (Pipeline.mem_restRefs_of main_arg1 (by decide) (by decide))).trans (atEntry_arg1 m c),
    ((h c).2 main_arg2 (Pipeline.mem_restRefs_of main_arg2 (by decide) (by decide))).trans (atEntry_arg2 m c),
    ((h c).2 main_arg3 (Pipeline.mem_restRefs_of main_arg3 (by decide) (by decide))).trans (atEntry_arg3 m c),
    ((h c).2 main_arg4 (Pipeline.mem_restRefs_of main_arg4 (by decide) (by decide))).trans (atEntry_arg4 m c),
    ((h c).1 2).trans (((pdata m 0 c).arrAt_in 2 rfl _).trans ((pdata_A m c 2).trans (atEntry_arg5 m c))),
    ((h c).1 3).trans (((pdata m 0 c).arrAt_in 3 rfl _).trans ((pdata_A m c 3).trans (atEntry_arg6 m c))),
    ((h c).2 main_arg7 (Pipeline.mem_restRefs_of main_arg7 (by decide) (by decide))).trans (atEntry_arg7 m c),
    ((h c).2 main_arg8 (Pipeline.mem_restRefs_of main_arg8 (by decide) (by decide))).trans (atEntry_arg8 m c),
    ((h c).2 main_arg9 (Pipeline.mem_restRefs_of main_arg9 (by decide) (by decide))).trans (atEntry_arg9 m c),
    ((h c).2 main_arg10 (Pipeline.mem_restRefs_of main_arg10 (by decide) (by decide))).trans (atEntry_arg10 m c)⟩

/-- Every weakly fair execution of @main terminates with the argument arrays as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of_post m r h c) (run_main m ρ)

end Cert.KernelIdeal.Region

end
-- ==== Proof.EmbedSpec.lean ====
/-
  The function both programs compute, over the extended reals, one output element at a time:

      out (b, t, v, d) = (x (b, t, v) · W (v, d) + bias (v, d)) + pos (b, t, d)

  for b < 64, t < 288, v < 24, d < 256 — each of the 24 variables of a time step embedded by its own affine map of
  one input, plus the positional row of that time step, the same for all variables. The sums are grouped as written
  (the product with its bias first, the positional term last); no law of arithmetic is needed to identify the two
  programs with it, so finiteness of the inputs plays no role.
-/
import Idealize.ShloMosaic.PureOps.Ideal
import Idealize.ShloMosaic.Lib.ValueIdx

noncomputable section

namespace Cert.Embed

open Idealize.ShloMosaic Idealize.ShloMosaic.ValueIdx

/-- The embedding: `x` the features [64, 288, 24], `W` and `bias` the per-variable weights [24, 256], `pos` the
    positional array [64, 288, 256]. -/
def embed (x : FVec Ideal ⟨3, ![64, 288, 24]⟩ .f32) (W bias : FVec Ideal ⟨2, ![24, 256]⟩ .f32)
    (pos : FVec Ideal ⟨3, ![64, 288, 256]⟩ .f32) : FVec Ideal ⟨4, ![64, 288, 24, 256]⟩ .f32 :=
  fun i => x (ix3 (i 0) (i 1) (i 2)) * W (ix2 (i 2) (i 3)) + bias (ix2 (i 2) (i 3)) + pos (ix3 (i 0) (i 1) (i 3))

end Cert.Embed

end
-- ==== Proof.KernelValue.lean ====
/-
  What the idealized kernel leaves in its result array: the embedding of the argument arrays.

  The grid has one point per batch row. At point `t` the body reads row `t` of the features (a 1 × 288 × 24 block), row
  `t` of the positional array (1 × 288 × 256) and the whole weight and bias matrices, and stores one 1 × 288 × 24 × 256
  block. Its value at (0, s, v, d) is read off the body's operations: the feature block cast to 288 × 24 × 1 and repeated
  along the last axis gives x (t, s, v); the weights and the bias cast to 1 × 24 × 256 and repeated along the first give
  W (v, d) and bias (v, d); the positional block cast to 288 × 1 × 256 and repeated along the middle axis gives
  pos (t, s, d); and the arithmetic is (x · W + bias) + pos, grouped as in the specification. Block `t` of the output
  array is rows t of the four-axis array, the 64 blocks tile it, so the array ends as the embedding, index by index.
-/
import proofs.«115655_j8890582303480_1_alg».proof.Proof.RegionIdeal
import proofs.«115655_j8890582303480_1_alg».proof.Proof.EmbedSpec
import Idealize.ShloMosaic.Lib.Pipeline.Value
import Idealize.ShloMosaic.Lib.ValueIdx
import Idealize.ShloMosaic.Lib.ValueLayout

set_option maxRecDepth 16384

noncomputable section

namespace Cert.KernelIdeal.Embed

open Cert.KernelIdeal Cert.KernelIdeal.Gen Cert.KernelIdeal.Region Cert.Embed
open Idealize.ShloMosaic Idealize.ShloMosaic.TcCoe Idealize.SL.Sem Idealize.ShloMosaic.ValueIdx
open Idealize.ShloMosaic.Pipeline (Dat)

/-! ## The body's three layout forms, read at an index -/

section Layout
variable {α : Type}

/-- A 1 × 288 × 24 block cast to 288 × 24, then to 288 × 24 × 1, then repeated along the last axis: at (s, v, d) it is
    the block at (0, s, v). -/
theorem rows_repeated_apply (x : S1x288x24.Idx → α) (h1 : S1x288x24.ShapeCasts S288x24) (h2 : S288x24.ShapeCasts S288x24x1)
    (h3 : S288x24x1.Broadcasts S288x24x256) (s : Fin 288) (v : Fin 24) (d : Fin 256) :
    broadcastTo S288x24x256 (shapeCast S288x24x1 (shapeCast S288x24 x h1) h2) h3 (ix3 s v d) = x (ix3 (0 : Fin 1) s v) :=
  (broadcastTo_apply _ h3 (ix3 s v d) (ix3 s v (0 : Fin 1)) (fun a => match a with
    | ⟨0, _⟩ => by show s.val = if (288 : Nat) = 1 then 0 else s.val; rw [if_neg (by decide)]
    | ⟨1, _⟩ => by show v.val = if (24 : Nat) = 1 then 0 else v.val; rw [if_neg (by decide)]
    | ⟨2, _⟩ => by show 0 = if (1 : Nat) = 1 then 0 else d.val; rw [if_pos rfl])).trans
  ((shapeCast_apply _ h2 (ix3 s v (0 : Fin 1)) (ix2 s v) (by
      rw [Shape.rowMajor_val_two, Shape.rowMajor_val_three]
      show s.val * 24 + v.val = (s.val * 24 + v.val) * 1 + 0
      omega)).trans
    (shapeCast_1ab_ab_apply x h1 s v))

/-- A 24 × 256 matrix cast to 1 × 24 × 256, then repeated along the first axis: at (s, v, d) it is the matrix at (v, d). -/
theorem matrix_repeated_apply (w : S24x256.Idx → α) (h1 : S24x256.ShapeCasts S1x24x256) (h2 : S1x24x256.Broadcasts S288x24x256)
    (s : Fin 288) (v : Fin 24) (d : Fin 256) :
    broadcastTo S288x24x256 (shapeCast S1x24x256 w h1) h2 (ix3 s v d) = w (ix2 v d) :=
  (broadcastTo_apply _ h2 (ix3 s v d) (ix3 (0 : Fin 1) v d) (fun a => match a with
    | ⟨0, _⟩ => by show 0 = if (1 : Nat) = 1 then 0 else s.val; rw [if_pos rfl]
    | ⟨1, _⟩ => by show v.val = if (24 : Nat) = 1 then 0 else v.val; rw [if_neg (by decide)]
    | ⟨2, _⟩ => by show d.val = if (256 : Nat) = 1 then 0 else d.val; rw [if_neg (by decide)])).trans
  (shapeCast_ab_1ab_apply w h1 (0 : Fin 1) v d)

/-- A 1 × 288 × 256 block cast to 288 × 256, then to 288 × 1 × 256, then repeated along the middle axis: at (s, v, d) it
    is the block at (0, s, d). -/
theorem positions_repeated_apply (p : S1x288x256.Idx → α) (h1 : S1x288x256.ShapeCasts S288x256) (h2 : S288x256.ShapeCasts S288x1x256)
    (h3 : S288x1x256.Broadcasts S288x24x256) (s : Fin 288) (v : Fin 24) (d : Fin 256) :
    broadcastTo S288x24x256 (shapeCast S288x1x256 (shapeCast S288x256 p h1) h2) h3 (ix3 s v d) = p (ix3 (0 : Fin 1) s d) :=
  (broadcastTo_apply _ h3 (ix3 s v d) (ix3 s (0 : Fin 1) d) (fun a => match a with
    | ⟨0, _⟩ => by show s.val = if (288 : Nat) = 1 then 0 else s.val; rw [if_neg (by decide)]
    | ⟨1, _⟩ => by show 0 = if (1 : Nat) = 1 then 0 else v.val; rw [if_pos rfl]
    | ⟨2, _⟩ => by show d.val = if (256 : Nat) = 1 then 0 else d.val; rw [if_neg (by decide)])).trans
  ((shapeCast_apply _ h2 (ix3 s (0 : Fin 1) d) (ix2 s d) (by
      rw [Shape.rowMajor_val_two, Shape.rowMajor_val_three]
      show s.val * 256 + d.val = (s.val * 1 + 0) * 256 + d.val
      omega)).trans
    (shapeCast_1ab_ab_apply p h1 s d))

end Layout

/-! ## The body's value at an index -/

/-- The stored block at (u, s, v, d), from the four blocks read: (x (0, s, v) · W (v, d) + bias (v, d)) + pos (0, s, d). -/
theorem payload_apply (x : Vec Ideal S1x288x24 .f32) (w b : Vec Ideal S24x256 .f32) (p : Vec Ideal S1x288x256 .f32)
    (u : Fin 1) (s : Fin 288) (v : Fin 24) (d : Fin 256) :
    k0_pay1 (F := Ideal) x w b p (ix4 u s v d)
      = x (ix3 (0 : Fin 1) s v) * w (ix2 v d) + b (ix2 v d) + p (ix3 (0 : Fin 1) s d) := by
  unfold k0_pay1
  refine (shapeCast_abc_1abc_apply _ _ u s v d).trans ?_
  refine congrArg₂ (· + ·) (congrArg₂ (· + ·) (congrArg₂ (· * ·) ?_ ?_) ?_) ?_
  · exact rows_repeated_apply x _ _ _ s v d
  · exact matrix_repeated_apply w _ _ s v d
  · exact matrix_repeated_apply b _ _ s v d
  · exact positions_repeated_apply p _ _ _ s v d

/-! ## From the blocks to the array -/

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps over the grid: at point `t` the features, the positional array and the output are at block
    `t` of their leading axis and block 0 of the others; the weights and the bias are at block 0. -/
theorem index_maps : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0
    ∧ win0_4.index t (3 : Fin 4) = 0 :=
  (by decide +kernel : ∀ t : Fin grid0.N, _)

/-! The blocks of the four inputs sit in their arrays where the output block's rows say: on every axis a block's
    coordinate in its array is the block index times the block's extent plus the coordinate inside the block. -/

theorem emb_features (t : Fin cfg0.N) (u : Fin 1) (s : Fin 288) (v : Fin 24) (d : Fin 256) :
    ((cfg0.win 0).blk t).view.emb (ix3 (0 : Fin 1) s v)
      = ix3 ((((cfg0.win 4).blk t).view.emb (ix4 u s v d)) 0) ((((cfg0.win 4).blk t).view.emb (ix4 u s v d)) 1) ((((cfg0.win 4).blk t).view.emb (ix4 u s v d)) 2) := by
  obtain ⟨e00, e01, e02, e10, e11, e12, e20, e21, e30, e31, e40, e41, e42, e43⟩ := index_maps t
  have hu : u.val = 0 := by omega
  funext a; apply Fin.ext
  match a with
  | ⟨0, _⟩ => show win0_0.index t (0 : Fin 3) * 1 + 1 * 0 = win0_4.index t (0 : Fin 4) * 1 + 1 * u.val; omega
  | ⟨1, _⟩ => show win0_0.index t (1 : Fin 3) * 288 + 1 * s.val = win0_4.index t (1 : Fin 4) * 288 + 1 * s.val; omega
  | ⟨2, _⟩ => show win0_0.index t (2 : Fin 3) * 24 + 1 * v.val = win0_4.index t (2 : Fin 4) * 24 + 1 * v.val; omega

theorem emb_positions (t : Fin cfg0.N) (u : Fin 1) (s : Fin 288) (v : Fin 24) (d : Fin 256) :
    ((cfg0.win 1).blk t).view.emb (ix3 (0 : Fin 1) s d)
      = ix3 ((((cfg0.win 4).blk t).view.emb (ix4 u s v d)) 0) ((((cfg0.win 4).blk t).view.emb (ix4 u s v d)) 1) ((((cfg0.win 4).blk t).view.emb (ix4 u s v d)) 3) := by
  obtain ⟨e00, e01, e02, e10, e11, e12, e20, e21, e30, e31, e40, e41, e42, e43⟩ := index_maps t
  have hu : u.val = 0 := by omega
  funext a; apply Fin.ext
  match a with
  | ⟨0, _⟩ => show win0_1.index t (0 : Fin 3) * 1 + 1 * 0 = win0_4.index t (0 : Fin 4) * 1 + 1 * u.val; omega
  | ⟨1, _⟩ => show win0_1.index t (1 : Fin 3) * 288 + 1 * s.val = win0_4.index t (1 : Fin 4) * 288 + 1 * s.val; omega
  | ⟨2, _⟩ => show win0_1.index t (2 : Fin 3) * 256 + 1 * d.val = win0_4.index t (3 : Fin 4) * 256 + 1 * d.val; omega

theorem emb_weights (t : Fin cfg0.N) (u : Fin 1) (s : Fin 288) (v : Fin 24) (d : Fin 256) :
    ((cfg0.win 2).blk t).view.emb (ix2 v d) = ix2 ((((cfg0.win 4).blk t).view.emb (ix4 u s v d)) 2) ((((cfg0.win 4).blk t).view.emb (ix4 u s v d)) 3) := by
  obtain ⟨e00, e01, e02, e10, e11, e12, e20, e21, e30, e31, e40, e41, e42, e43⟩ := index_maps t
  funext a; apply Fin.ext
  match a with
  | ⟨0, _⟩ => show win0_2.index t (0 : Fin 2) * 24 + 1 * v.val = win0_4.index t (2 : Fin 4) * 24 + 1 * v.val; omega
  | ⟨1, _⟩ => show win0_2.index t (1 : Fin 2) * 256 + 1 * d.val = win0_4.index t (3 : Fin 4) * 256 + 1 * d.val; omega

theorem emb_bias (t : Fin cfg0.N) (u : Fin 1) (s : Fin 288) (v : Fin 24) (d : Fin 256) :
    ((cfg0.win 3).blk t).view.emb (ix2 v d) = ix2 ((((cfg0.win 4).blk t).view.emb (ix4 u s v d)) 2) ((((cfg0.win 4).blk t).view.emb (ix4 u s v d)) 3) := by
  obtain ⟨e00, e01, e02, e10, e11, e12, e20, e21, e30, e31, e40, e41, e42, e43⟩ := index_maps t
  funext a; apply Fin.ext
  match a with
  | ⟨0, _⟩ => show win0_3.index t (0 : Fin 2) * 24 + 1 * v.val = win0_4.index t (2 : Fin 4) * 24 + 1 * v.val; omega
  | ⟨1, _⟩ => show win0_3.index t (1 : Fin 2) * 256 + 1 * d.val = win0_4.index t (3 : Fin 4) * 256 + 1 * d.val; omega

/-- The four arrays the region reads, as it finds them, at their literal types. -/
abbrev featuresAt (c : Dev nD) : FVec Ideal S64x288x24 .f32 := atEntry m c main_arg0
abbrev weightsAt (c : Dev nD) : FVec Ideal S24x256 .f32 := atEntry m c main_arg5
abbrev biasAt (c : Dev nD) : FVec Ideal S24x256 .f32 := atEntry m c main_arg6
abbrev positionsAt (c : Dev nD) : FVec Ideal S64x288x256 .f32 := atEntry m c main_v34

set_option maxHeartbeats 400000 in
/-- What point `t` writes back is block `t` of the embedding of the arrays the region finds. -/
theorem flushed_eq (c : Dev nD) (t : Fin cfg0.N) :
    (pdata m 0 c).flushed 4 t = ((cfg0.win 4).blk t).view.read (Elt Ideal)
      (embed (featuresAt m c) (weightsAt m c) (biasAt m c) (positionsAt m c)) := by
  show (cfg0.win 4).cut (grid0.coords t) ((pdata m 0 c).after 4 t) = _
  rw [after4]
  unfold stored
  rw [View.canon_unit_zero zeros4]
  simp only [View.ld_unit_zero (S := S1x288x24) zeros3, View.ld_unit_zero (S := S1x288x256) zeros3,
    View.ld_unit_zero (S := S24x256) zeros2]
  funext y
  obtain ⟨u, s, v, d, rfl⟩ : ∃ (u : Fin 1) (s : Fin 288) (v : Fin 24) (d : Fin 256), y = ix4 u s v d :=
    ⟨y 0, y 1, y 2, y 3, eq_ix4 y⟩
  refine (payload_apply (blockAt m c 0 t) (blockAt m c 2 t) (blockAt m c 3 t) (blockAt m c 1 t) u s v d).trans ?_
  show featuresAt m c (((cfg0.win 0).blk t).view.emb (ix3 (0 : Fin 1) s v))
        * weightsAt m c (((cfg0.win 2).blk t).view.emb (ix2 v d))
        + biasAt m c (((cfg0.win 3).blk t).view.emb (ix2 v d))
        + positionsAt m c (((cfg0.win 1).blk t).view.emb (ix3 (0 : Fin 1) s d))
      = embed (featuresAt m c) (weightsAt m c) (biasAt m c) (positionsAt m c)
          (((cfg0.win 4).blk t).view.emb (ix4 u s v d))
  unfold embed
  rw [emb_features t u s v d, emb_positions t u s v d, emb_weights t u s v d, emb_bias t u s v d]
  rfl

/-- An index of the output array is in point `t`'s block iff each coordinate is in the block's range on its axis. -/
theorem mem_block (t : Fin cfg0.N) (i : S64x288x24x256.Idx) :
    i ∈ ((cfg0.win 4).blk t).view.set ↔ ∀ a : Fin 4, win0_4.index t a * S1x288x24x256.size a ≤ (i a).val
      ∧ (i a).val < win0_4.index t a * S1x288x24x256.size a + S1x288x24x256.size a := by
  show i ∈ ((View.whole main_v35).slice (win0_4.rect t)).set ↔ _
  rw [View.set_slice_whole, Rect.mem_set_unit]
  exact Iff.rfl

/-- The 64 blocks tile the output array: the index (b, s, v, d) is in the block of point b. -/
theorem blocks_cover (i : S64x288x24x256.Idx) :
    ∃ t : Fin cfg0.N, (cfg0.win 4).flush t = true ∧ i ∈ ((cfg0.win 4).blk t).view.set := by
  have hi0 : (i 0).val < 64 := (i 0).isLt
  have hi1 : (i 1).val < 288 := (i 1).isLt
  have hi2 : (i 2).val < 24 := (i 2).isLt
  have hi3 : (i 3).val < 256 := (i 3).isLt
  have hN : (i 0).val < cfg0.N := by rw [show cfg0.N = 64 from N_0]; exact hi0
  refine ⟨⟨(i 0).val, hN⟩, flush0_4 _, ?_⟩
  obtain ⟨-, -, -, -, -, -, -, -, -, -, e40', e41, e42, e43⟩ := index_maps ⟨(i 0).val, hN⟩
  have e40 : win0_4.index ⟨(i 0).val, hN⟩ (0 : Fin 4) = (i 0).val := e40'
  rw [mem_block]
  intro a
  match a with
  | ⟨0, _⟩ => show win0_4.index ⟨(i 0).val, hN⟩ (0 : Fin 4) * 1 ≤ (i 0).val ∧ (i 0).val < win0_4.index ⟨(i 0).val, hN⟩ (0 : Fin 4) * 1 + 1; rw [e40]; omega
  | ⟨1, _⟩ => show win0_4.index ⟨(i 0).val, hN⟩ (1 : Fin 4) * 288 ≤ (i 1).val ∧ (i 1).val < win0_4.index ⟨(i 0).val, hN⟩ (1 : Fin 4) * 288 + 288; rw [e41]; omega
  | ⟨2, _⟩ => show win0_4.index ⟨(i 0).val, hN⟩ (2 : Fin 4) * 24 ≤ (i 2).val ∧ (i 2).val < win0_4.index ⟨(i 0).val, hN⟩ (2 : Fin 4) * 24 + 24; rw [e42]; omega
  | ⟨3, _⟩ => show win0_4.index ⟨(i 0).val, hN⟩ (3 : Fin 4) * 256 ≤ (i 3).val ∧ (i 3).val < win0_4.index ⟨(i 0).val, hN⟩ (3 : Fin 4) * 256 + 256; rw [e43]; omega

/-- The output array after the run is the embedding of the features, the weights and the bias as launched and of the
    positional array the host operations computed. -/
theorem result_array (c : Dev nD) :
    (pdata m 0 c).arrAt 4 cfg0.N
      = embed (m ((c : Thread nD τ).loc main_arg0)) (m ((c : Thread nD τ).loc main_arg5))
          (m ((c : Thread nD τ).loc main_arg6)) (atEntry m c main_v34) := by
  have h := (pdata m 0 c).arrAt_eq_of_cover 4 (embed (featuresAt m c) (weightsAt m c) (biasAt m c) (positionsAt m c))
    (fun t _ => flushed_eq m c t) blocks_cover
  rw [h]
  unfold featuresAt weightsAt biasAt positionsAt
  rw [atEntry_arg0 m c, atEntry_arg5 m c, atEntry_arg6 m c]

/-! ## The run, read -/

/-- Every weakly fair execution of the idealized kernel's @main terminates with the result array at the embedding
    and the arguments as launched. -/
theorem run : θ_run defs (onTc (τ := τ) (main (F := Ideal))) ⟨m, fun _ => 0, ρ⟩ fun r => ∀ c : Dev nD,
      r.2.mem ((c.tc : Thread nD τ).loc main_v35)
        = embed (m ((c : Thread nD τ).loc main_arg0)) (m ((c : Thread nD τ).loc main_arg5))
            (m ((c : Thread nD τ).loc main_arg6)) (atEntry m c main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 4).trans (result_array m c), kept_of_post m r h c⟩) (run_main m ρ)

end Cert.KernelIdeal.Embed

end
-- ==== Proof.Positions.lean ====
/-
  The positional array is the same function of the arguments in both programs. The kernel's @main computes it on the
  host before the region — each index array clamped into its table's range (an index below zero has the table's
  length added), the time-of-day, day-of-week, day-of-month and day-of-year rows looked up, the three per-batch rows
  repeated over the 288 time steps, and the four pieces laid side by side into 128 + 32 + 32 + 64 = 256 columns — and
  the reference spells the very same operations. So the array the region finds is the reference's positional stage of
  the launch contents, with no look-up ever opened.
-/
import proofs.«115655_j8890582303480_1_alg».proof.Proof.RegionIdeal
import proofs.«115655_j8890582303480_1_alg».proof.Proof.Gen.ReferenceIdeal.Read
import Idealize.ShloMosaic.PureOps.Ideal

set_option maxRecDepth 16384

noncomputable section

namespace Cert.KernelIdeal.Embed

open Cert.KernelIdeal Cert.KernelIdeal.Gen Cert.KernelIdeal.Region
open Idealize.ShloMosaic Idealize.ShloMosaic.TcCoe Idealize.SL.Sem Idealize.ShloMosaic.StableHlo

variable (m : (ℓ : Loc nD τ sig) → Buf (Elt Ideal) ℓ)

set_option maxHeartbeats 2000000 in
/-- The positional array as the region finds it is the reference's positional stage of the index arrays and the four
    tables as launched. -/
theorem positions_eq (c : Dev nD) :
    (atEntry m c main_v34 : S64x288x256.Idx → EReal)
      = Cert.ReferenceIdeal.Read.val_main_v42 (F := Ideal)
          (m ((c : Thread nD τ).loc main_arg1)) (m ((c : Thread nD τ).loc main_arg2))
          (m ((c : Thread nD τ).loc main_arg3)) (m ((c : Thread nD τ).loc main_arg4))
          (m ((c : Thread nD τ).loc main_arg7)) (m ((c : Thread nD τ).loc main_arg8))
          (m ((c : Thread nD τ).loc main_arg9)) (m ((c : Thread nD τ).loc main_arg10)) := by
  dsimp only [atEntry, hostOps0]
  after_results_simp
  rfl

end Cert.KernelIdeal.Embed

end
-- ==== Proof.ReferenceValue.lean ====
/-
  The reference computes the embedding. Its last operation adds two arrays of shape [64, 288, 24, 256]: the first is
  the features broadcast along the last axis times the weights broadcast along the two leading axes, plus the bias
  broadcast the same way; the second is the positional array [64, 288, 256] broadcast along the variable axis. Read
  at an index (b, t, v, d) the broadcasts select x (b, t, v), W (v, d), bias (v, d) and pos (b, t, d). The
  positional array itself — clamped indices, four table look-ups, a concatenation — is left as the reference spells
  it: the kernel's program computes it by the same operations.
-/
import proofs.«115655_j8890582303480_1_alg».proof.Proof.Gen.ReferenceIdeal.Read
import proofs.«115655_j8890582303480_1_alg».proof.Proof.EmbedSpec

noncomputable section

namespace Cert.ReferenceIdeal.Embed

open Cert.ReferenceIdeal Cert.ReferenceIdeal.Read Cert.Embed
open Idealize.ShloMosaic Idealize.ShloMosaic.ValueIdx

/-- The reference's result is the embedding of the features, the weights, the bias and the reference's positional
    array. -/
theorem result_eq (x0 : FVec Ideal S64x288x24 .f32) (x1 : IVec S64x288 32) (x2 x3 x4 : IVec S64 32)
    (x5 x6 : FVec Ideal S24x256 .f32) (x7 : FVec Ideal S288x128 .f32) (x8 : FVec Ideal S7x32 .f32)
    (x9 : FVec Ideal S32x32 .f32) (x10 : FVec Ideal S367x64 .f32) :
    val_main_v45 (F := Ideal) x0 x1 x2 x3 x4 x5 x6 x7 x8 x9 x10
      = embed x0 x5 x6 (val_main_v42 (F := Ideal) x1 x2 x3 x4 x7 x8 x9 x10) := by
  funext i
  have e0 : idx_main_v0 (idx_main_v2 i) = ix3 (i 0) (i 1) (i 2) :=
    funext fun a => Fin.ext (by match a with | ⟨0, _⟩ => rfl | ⟨1, _⟩ => rfl | ⟨2, _⟩ => rfl)
  have e1 : idx_main_v1 (idx_main_v3 i) = ix2 (i 2) (i 3) :=
    funext fun a => Fin.ext (by match a with | ⟨0, _⟩ => rfl | ⟨1, _⟩ => rfl)
  have e2 : idx_main_v5 (idx_main_v6 i) = ix2 (i 2) (i 3) :=
    funext fun a => Fin.ext (by match a with | ⟨0, _⟩ => rfl | ⟨1, _⟩ => rfl)
  have e3 : idx_main_v43 (idx_main_v44 i) = ix3 (i 0) (i 1) (i 3) :=
    funext fun a => Fin.ext (by match a with | ⟨0, _⟩ => rfl | ⟨1, _⟩ => rfl | ⟨2, _⟩ => rfl)
  rw [val_main_v45_apply, val_main_v7_apply, val_main_v4_apply, val_main_v2_apply, val_main_v0_apply,
    val_main_v3_apply, val_main_v1_apply, val_main_v6_apply, val_main_v5_apply, val_main_v44_apply,
    val_main_v43_apply, e0, e1, e2, e3]
  rfl

end Cert.ReferenceIdeal.Embed

end
-- ==== Proof.lean ====
/-
  The kernel embeds each of 24 variables of each of 64 × 288 time steps by its own affine map and adds a positional
  row:  out (b, t, v, d) = (x (b, t, v) · W (v, d) + bias (v, d)) + pos (b, t, d),  where `pos` is gathered on the host
  from four small tables (time of day, day of week, day of month, day of year) and laid side by side into 256
  columns. The reference is the same formula in array operations, with the same host computation of `pos`.

  The five claims:
  * the three programs run to their end and leave their arguments unchanged — for the two kernel programs because
    no host operation writes an argument and the pipelined region only reads its inputs (Proof/RegionBits.lean,
    Proof/RegionIdeal.lean); for the reference by its run read back operation by operation;
  * the idealized kernel is the printed kernel read over the extended reals, nothing rewritten;
  * over the extended reals the two results agree element by element: the kernel's result array is the embedding of
    its arguments (Proof/KernelValue.lean: the body's value at an index, the 64 blocks tiling the array), the
    reference's is too (Proof/ReferenceValue.lean), and the positional array the kernel's region finds is the
    reference's positional stage (Proof/Positions.lean). Both sides group the sum alike, so no law of arithmetic and
    no finiteness of the inputs is used.
-/
import proofs.«115655_j8890582303480_1_alg».proof.Defs
import proofs.«115655_j8890582303480_1_alg».proof.Proof.Gen.Kernel
import proofs.«115655_j8890582303480_1_alg».proof.Proof.Gen.KernelIdeal
import proofs.«115655_j8890582303480_1_alg».proof.Proof.Gen.ReferenceIdeal
import proofs.«115655_j8890582303480_1_alg».proof.Proof.Gen.Pre_finite_inputs
import proofs.«115655_j8890582303480_1_alg».proof.Proof.Gen.ReferenceIdeal.Run
import proofs.«115655_j8890582303480_1_alg».proof.Proof.Gen.ReferenceIdeal.Read
import proofs.«115655_j8890582303480_1_alg».proof.Proof.RegionBits
import proofs.«115655_j8890582303480_1_alg».proof.Proof.RegionIdeal
import proofs.«115655_j8890582303480_1_alg».proof.Proof.KernelValue
import proofs.«115655_j8890582303480_1_alg».proof.Proof.Positions
import proofs.«115655_j8890582303480_1_alg».proof.Proof.ReferenceValue
import Idealize.ShloMosaic.Adequacy
import Idealize.ShloMosaic.Init

noncomputable section

namespace Cert.Proof

open Idealize.ShloMosaic Idealize.SL.Sem

/-- The printed kernel runs and keeps its arguments. -/
theorem frame_kernel : Cert.frame_Kernel := fun m ρ _ => Cert.Kernel.Region.args_kept m ρ

/-- So does its reading over the extended reals. -/
theorem frame_ideal : Cert.frame_KernelIdeal := fun m ρ _ => Cert.KernelIdeal.Region.args_kept m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the embedding of the features, the weights,
    the bias and the one positional array. -/
theorem algebraic : Cert.algebraic_KernelIdeal_ReferenceIdeal := by
  intro m ρ m' ρ' _ hagree
  refine ⟨_, Cert.KernelIdeal.Embed.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v45_eq, Cert.ReferenceIdeal.Embed.result_eq, a0, a1, a2, a3, a4, a5, a6, a7, a8,
    a9, a10]
  exact congrArg (Cert.Embed.embed _ _ _) (Cert.KernelIdeal.Embed.positions_eq m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
